-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x64 : Shape := ⟨2, ![2048, 64]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x2048 .f32) (main_arg1 : FVec F S2048x64 .f32) (main_arg2 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x2048 : Shape := ⟨2, ![16384, 2048]⟩
abbrev S2048x64 : Shape := ⟨2, ![2048, 64]⟩
abbrev S64 : Shape := ⟨1, ![64]⟩
abbrev S64x2048 : Shape := ⟨2, ![64, 2048]⟩
abbrev S1x64 : Shape := ⟨2, ![1, 64]⟩
abbrev S64x16384 : Shape := ⟨2, ![64, 16384]⟩
abbrev S1024x2048 : Shape := ⟨2, ![1024, 2048]⟩
abbrev S64x1024 : Shape := ⟨2, ![64, 1024]⟩
abbrev S64x1 : Shape := ⟨2, ![64, 1]⟩
abbrev S1024 : Shape := ⟨1, ![1024]⟩
abbrev S1x1024 : Shape := ⟨2, ![1, 1024]⟩
abbrev S16384x64 : Shape := ⟨2, ![16384, 64]⟩

abbrev nBuf : Space → Nat
  | .hbm => 7
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x64, .f32⟩
  | .hbm, ⟨2, _⟩ => ⟨S64, .f32⟩
  | .hbm, ⟨3, _⟩ => ⟨S64x2048, .f32⟩
  | .hbm, ⟨4, _⟩ => ⟨S1x64, .f32⟩
  | .hbm, ⟨5, _⟩ => ⟨S64x16384, .f32⟩
  | .hbm, ⟨6, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S1x64, .f32⟩
  | .local _ .vmem, ⟨4, _⟩ => ⟨S64x1024, .f32⟩
  | .local _ .vmem, ⟨5, _⟩ => ⟨S64x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2048x64_S64x2048_1_0 : S2048x64.Transposes [1, 0] S64x2048
  shapeCasts_S64_S1x64 : S64.ShapeCasts S1x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1024x2048_S1024x2048_0_0 : ∀ a, (![0, 0] : Fin 2 → Nat) a + S1024x2048.size a ≤ S1024x2048.size a
  h_S1024x2048 : 0 < S1024x2048.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  broadcasts_S64x1_S64x1024 : S64x1.Broadcasts S64x1024
  reduces_S64x1024_S1024 : S64x1024.Reduces [0] S1024
  shapeCasts_S1024_S1x1024 : S1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  transposes_S64x16384_S16384x64_1_0 : S64x16384.Transposes [1, 0] S16384x64
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x16384.size a
  hwx0_3 : ∀ i : grid0.Coords, EltTy.bits .f32 = 32 ∨ (Rect.block (s := S64x16384) S64x1024.size (cc0_transform_3 i) (hinb0_3 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x64 : Shape := ⟨2, ![2048, 64]⟩
abbrev S64 : Shape := ⟨1, ![64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x64, .f32⟩
  | .hbm, ⟨2, _⟩ => ⟨S64, .f32⟩
  | .hbm, ⟨3, _⟩ => ⟨S16384x64, .f32⟩
  | .hbm, ⟨4, _⟩ => ⟨S1x64, .f32⟩
  | .hbm, ⟨5, _⟩ => ⟨S16384x64, .f32⟩
  | .hbm, ⟨6, _⟩ => ⟨S16384x64, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384x1, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S16384x64, .f32⟩
  | .hbm, ⟨20, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.Softmax.lean ====
/-
  The mixture-of-experts gate as one function of its arrays, index by index, on the extended reals.

  For a token `t` and an expert `e` the logit is `L t e = (∑ k, x[t,k] · W[k,e]) + b[e]`, the sum over the 2048 model
  coordinates. A token's probabilities are the softmax of its 64 logits taken the numerically stable way: with
  `M t` the maximum of the 64 logits (the fold of `max` from −∞), the probability of expert `e` is
  `exp (L t e − M t) / ∑ e', exp (L t e' − M t)`. Nothing here is simplified: the maximum stays in the formula, since
  on the extended reals subtracting it is not an identity one may cancel (at an infinite logit it is not).
-/
import Idealize.ShloMosaic.PureOps.Ideal.Laws
import Idealize.ShloMosaic.Lib.ValueIdx

noncomputable section

open scoped BigOperators

namespace Cert.Gate

open Idealize.ShloMosaic Idealize.ShloMosaic.ValueIdx

/-- The f32 word of −∞ denotes the least extended real, so its maximum with anything is that thing. -/
theorem max_negInf (y : EReal) : max (Ideal.ofBits .f32 0xFF800000#32) y = y := by
  simp [Ideal.ofBits, Ideal.ieee]

/-- The largest of 64 values: the fold of `max` over them from −∞. -/
def rowMax (L : Fin 64 → EReal) : EReal :=
  (Finset.univ : Finset (Fin 64)).fold max (Ideal.ofBits .f32 0xFF800000#32) L

/-- The softmax of 64 values at position `e`, shifted by their maximum. -/
def softmaxRow (L : Fin 64 → EReal) (e : Fin 64) : EReal :=
  Ideal.div (Ideal.exp (L e - rowMax L)) (∑ e' : Fin 64, Ideal.exp (L e' - rowMax L))

/-- Token `t`'s logit for expert `e`: the token's row of `x` against column `e` of `W`, plus the bias. -/
def logit (x : (⟨2, ![16384, 2048]⟩ : Shape).Idx → EReal) (W : (⟨2, ![2048, 64]⟩ : Shape).Idx → EReal)
    (b : (⟨1, ![64]⟩ : Shape).Idx → EReal) (t : Fin 16384) (e : Fin 64) : EReal :=
  (∑ k : Fin 2048, x (ix2 t k) * W (ix2 k e)) + b (ix1 e)

/-- The gate's probabilities, tokens by experts. -/
def gate (x : (⟨2, ![16384, 2048]⟩ : Shape).Idx → EReal) (W : (⟨2, ![2048, 64]⟩ : Shape).Idx → EReal)
    (b : (⟨1, ![64]⟩ : Shape).Idx → EReal) : (⟨2, ![16384, 64]⟩ : Shape).Idx → EReal :=
  fun i => softmaxRow (logit x W b (i 0)) (i 1)

/-- The gate at token `t` and expert `e`. -/
theorem gate_ix2 (x : (⟨2, ![16384, 2048]⟩ : Shape).Idx → EReal) (W : (⟨2, ![2048, 64]⟩ : Shape).Idx → EReal)
    (b : (⟨1, ![64]⟩ : Shape).Idx → EReal) (t : Fin 16384) (e : Fin 64) :
    gate x W b (ix2 t e) = softmaxRow (logit x W b t) e := rfl

end Cert.Gate

end
-- ==== Proof.LibColumnBroadcast.lean ====
/-
  A column spread over many columns, read at an entry.

  A `vector.broadcast` of an `[a, 1]` array to `[a, b]` repeats the one column `b` times: the entry at row `p` and column
  `c` is the column's entry at row `p`, whatever `c`. (The companion of the row form `[1, b] → [a, b]`; it is what a
  reduction that keeps its axis, or a bias turned into a column, is spread back with.)
-/
import Idealize.ShloMosaic.Lib.Pipeline.Value
import Idealize.ShloMosaic.Lib.ValueIdx

namespace Cert.LibColumnBroadcast

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.BlockGate.lean ====
/-
  What the kernel's body stores, read at one entry.

  The body works on a block of 1024 tokens, with the experts on the rows: from the transposed weights `wt` (64 × 2048),
  the tokens' rows `xb` (1024 × 2048) and the bias as a row `bb` (1 × 64) it forms the logits
  `(∑ k, wt[e,k] · xb[j,k]) + bb[0,e]` at expert `e` and token `j` (a matrix product contracting the two minor axes into a
  zero accumulator, plus the bias row turned into a column and spread over the tokens), takes each token's maximum over
  the 64 rows, exponentiates the differences, sums each token's exponentials over the rows and divides. So the stored
  value at `(e, j)` is the softmax of token `j`'s 64 logits at `e`.
-/
import proofs.«147851_g64424509440698_cont_sun_c4_507_31_alg».proof.Proof.Gen.KernelIdeal.Skeleton
import proofs.«147851_g64424509440698_cont_sun_c4_507_31_alg».proof.Proof.Softmax
import proofs.«147851_g64424509440698_cont_sun_c4_507_31_alg».proof.Proof.LibColumnBroadcast
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen
open Idealize.ShloMosaic Idealize.ShloMosaic.ValueIdx Cert.Gate

/-! ## The body's two halves, as the body spells them -/

/-- The block's logits, experts by tokens: the product into a zero accumulator plus the bias column. -/
def logitsT (wt : FVec Ideal S64x2048 .f32) (xb : FVec Ideal S1024x2048 .f32) (bb : FVec Ideal S1x64 .f32) :
    FVec Ideal S64x1024 .f32 :=
  addf (matmul dot_S64x2048_S1024x2048_S64x1024_1_1_0_0_n_n none (shapeCast S64x2048 wt shapeCasts_S64x2048_S64x2048) xb
      (constant (F := Ideal) S64x1024 .f32 0x00000000#32))
    (broadcastTo S64x1024 (transpose S64x1 [1, 0] (shapeCast S1x64 bb shapeCasts_S1x64_S1x64) transposes_S1x64_p1_0_S64x1)
      broadcasts_S64x1_S64x1024)

/-- Each token's maximum over the 64 rows, spread back over the rows. -/
def colMax (L : FVec Ideal S64x1024 .f32) : FVec Ideal S64x1024 .f32 :=
  broadcastTo S64x1024 (shapeCast S1x1024
    (multiReduction (F := Ideal) .maximumf [0] S1024 L 0xFF800000#32 reduces_S64x1024_S1024 (.inl rfl) rfl)
    shapeCasts_S1024_S1x1024) broadcasts_S1x1024_S64x1024

/-- Each token's sum over the 64 rows, spread back over the rows. -/
def colSum (E : FVec Ideal S64x1024 .f32) : FVec Ideal S64x1024 .f32 :=
  broadcastTo S64x1024 (shapeCast S1x1024
    (multiReduction (F := Ideal) .add [0] S1024 E 0x00000000#32 reduces_S64x1024_S1024 (.inl rfl) rfl)
    shapeCasts_S1024_S1x1024) broadcasts_S1x1024_S64x1024

/-- The softmax down each column. -/
def softmaxT (L : FVec Ideal S64x1024 .f32) : FVec Ideal S64x1024 .f32 :=
  divf (exp (subf L (colMax L))) (colSum (exp (subf L (colMax L))))

/-- The body's stored value is the column softmax of the block's logits. -/
theorem pay_eq (wt : FVec Ideal S64x2048 .f32) (xb : FVec Ideal S1024x2048 .f32) (bb : FVec Ideal S1x64 .f32) :
    k0_pay1 (F := Ideal) wt xb bb = softmaxT (logitsT wt xb bb) := rfl

/-! ## The logits at an entry -/

/-- Token `j`'s logit for expert `e`, from the block's three operands. -/
def blockLogit (wt : FVec Ideal S64x2048 .f32) (xb : FVec Ideal S1024x2048 .f32) (bb : FVec Ideal S1x64 .f32)
    (j : Fin 1024) (e : Fin 64) : EReal :=
  (∑ k : Fin 2048, wt (ix2 e k) * xb (ix2 j k)) + bb (ix2 (0 : Fin 1) e)

/-- The left operand's index at output `(e, j)` and contraction coordinate `q` is `(e, q)` … -/
theorem lhs_0 (i : S64x1024.Idx) (q : dot_S64x2048_S1024x2048_S64x1024_1_1_0_0_n_n.contr.Idx) :
    (dot_S64x2048_S1024x2048_S64x1024_1_1_0_0_n_n.lhsIdx i q 0).val = (i 0).val := by
  unfold DotDims.lhsIdx
  rw [dif_neg (show ¬(0 : Fin S64x2048.rank) ∈ dot_S64x2048_S1024x2048_S64x1024_1_1_0_0_n_n.lhsBatch by decide),
    dif_pos (show (0 : Fin S64x2048.rank) ∈ dot_S64x2048_S1024x2048_S64x1024_1_1_0_0_n_n.lhsNonContracting by decide)]
  rfl
theorem lhs_1 (i : S64x1024.Idx) (q : dot_S64x2048_S1024x2048_S64x1024_1_1_0_0_n_n.contr.Idx) :
    (dot_S64x2048_S1024x2048_S64x1024_1_1_0_0_n_n.lhsIdx i q 1).val = (q ⟨0, by decide⟩).val :=
  dot_S64x2048_S1024x2048_S64x1024_1_1_0_0_n_n.lhsIdx_val_of_single rfl i q
/-- … and the right operand's is `(j, q)`. -/
theorem rhs_0 (i : S64x1024.Idx) (q : dot_S64x2048_S1024x2048_S64x1024_1_1_0_0_n_n.contr.Idx) :
    (dot_S64x2048_S1024x2048_S64x1024_1_1_0_0_n_n.rhsIdx i q 0).val = (i 1).val := by
  unfold DotDims.rhsIdx
  rw [dif_neg (show ¬(0 : Fin S1024x2048.rank) ∈ dot_S64x2048_S1024x2048_S64x1024_1_1_0_0_n_n.rhsBatch by decide),
    dif_pos (show (0 : Fin S1024x2048.rank) ∈ dot_S64x2048_S1024x2048_S64x1024_1_1_0_0_n_n.rhsNonContracting by decide)]
  rfl
theorem rhs_1 (i : S64x1024.Idx) (q : dot_S64x2048_S1024x2048_S64x1024_1_1_0_0_n_n.contr.Idx) :
    (dot_S64x2048_S1024x2048_S64x1024_1_1_0_0_n_n.rhsIdx i q 1).val = (q ⟨0, by decide⟩).val :=
  dot_S64x2048_S1024x2048_S64x1024_1_1_0_0_n_n.rhsIdx_val_of_single rfl i q

/-- The product into the zero accumulator at `(e, j)`: the sum over the model coordinate. -/
theorem product_apply (wt : FVec Ideal S64x2048 .f32) (xb : FVec Ideal S1024x2048 .f32) (e : Fin 64) (j : Fin 1024) :
    matmul dot_S64x2048_S1024x2048_S64x1024_1_1_0_0_n_n none wt xb (constant (F := Ideal) S64x1024 .f32 0x00000000#32) (ix2 e j)
      = ∑ k : Fin 2048, wt (ix2 e k) * xb (ix2 j k) := by
  simp only [matmul]
  rw [Ideal.matmul_constant_zero_apply,
    ← Equiv.sum_comp (contrEquiv1 dot_S64x2048_S1024x2048_S64x1024_1_1_0_0_n_n 2048 rfl rfl).symm]
  refine Finset.sum_congr rfl fun k _ => ?_
  have hk := contrEquiv1_symm_val dot_S64x2048_S1024x2048_S64x1024_1_1_0_0_n_n 2048 rfl rfl k
  have el : dot_S64x2048_S1024x2048_S64x1024_1_1_0_0_n_n.lhsIdx (ix2 e j)
      ((contrEquiv1 dot_S64x2048_S1024x2048_S64x1024_1_1_0_0_n_n 2048 rfl rfl).symm k) = ix2 e k :=
    funext fun a => Fin.ext (by
      match a with
      | ⟨0, _⟩ => exact lhs_0 _ _
      | ⟨1, _⟩ => exact (lhs_1 _ _).trans hk)
  have er : dot_S64x2048_S1024x2048_S64x1024_1_1_0_0_n_n.rhsIdx (ix2 e j)
      ((contrEquiv1 dot_S64x2048_S1024x2048_S64x1024_1_1_0_0_n_n 2048 rfl rfl).symm k) = ix2 j k :=
    funext fun a => Fin.ext (by
      match a with
      | ⟨0, _⟩ => exact rhs_0 _ _
      | ⟨1, _⟩ => exact (rhs_1 _ _).trans hk)
  rw [el, er]

/-- The block's logits at `(e, j)`. -/
theorem logitsT_apply (wt : FVec Ideal S64x2048 .f32) (xb : FVec Ideal S1024x2048 .f32) (bb : FVec Ideal S1x64 .f32)
    (e : Fin 64) (j : Fin 1024) : logitsT wt xb bb (ix2 e j) = blockLogit wt xb bb j e := by
  unfold logitsT blockLogit
  rw [shapeCast_self, shapeCast_self]
  show _ + _ = _
  rw [product_apply, Cert.LibColumnBroadcast.broadcastTo_a1_ab_apply, transpose_ix2_apply]

/-! ## The column softmax at an entry -/

/-- The reduced index `j` with the row `k` put back is `(k, j)`. -/
theorem lift_rows (h : S64x1024.Reduces [0] S1024) (j : Fin 1024) (k : Fin (S64x1024.size 0)) :
    h.lift (ix1 j) k = ix2 (⟨k.val, k.isLt⟩ : Fin 64) j :=
  funext fun c => Fin.ext (by match c with | ⟨0, _⟩ => rfl | ⟨1, _⟩ => rfl)

/-- The spread maximum at `(e, j)`: the largest of column `j`. -/
theorem colMax_apply (L : FVec Ideal S64x1024 .f32) (e : Fin 64) (j : Fin 1024) :
    colMax L (ix2 e j) = rowMax fun e' : Fin 64 => L (ix2 e' j) := by
  unfold colMax
  rw [broadcastTo_1b_ab_apply, shapeCast_a_1a_apply]
  refine (Ideal.multiReduction_maximumf_single L 0xFF800000#32 reduces_S64x1024_S1024 (.inl rfl) rfl (ix1 j)).trans ?_
  have hf : (L ∘ reduces_S64x1024_S1024.lift (ix1 j)) = fun e' : Fin 64 => L (ix2 e' j) :=
    funext fun k => congrArg L (lift_rows reduces_S64x1024_S1024 j k)
  exact congrArg (fun f => Finset.fold max (Ideal.ofBits .f32 0xFF800000#32) f (Finset.univ : Finset (Fin 64))) hf

/-- The spread sum at `(e, j)`: the sum of column `j`. -/
theorem colSum_apply (E : FVec Ideal S64x1024 .f32) (e : Fin 64) (j : Fin 1024) :
    colSum E (ix2 e j) = ∑ e' : Fin 64, E (ix2 e' j) := by
  unfold colSum
  rw [broadcastTo_1b_ab_apply, shapeCast_a_1a_apply]
  refine (Ideal.multiReduction_add_single E 0x00000000#32 reduces_S64x1024_S1024 (.inl rfl) rfl (ix1 j)).trans ?_
  exact Finset.sum_congr rfl fun k _ => congrArg E (lift_rows reduces_S64x1024_S1024 j k)

/-- The column softmax at `(e, j)` is the softmax of column `j` at `e`. -/
theorem softmaxT_apply (L : FVec Ideal S64x1024 .f32) (e : Fin 64) (j : Fin 1024) :
    softmaxT L (ix2 e j) = softmaxRow (fun e' : Fin 64 => L (ix2 e' j)) e := by
  have hE : ∀ e' : Fin 64, (exp (subf L (colMax L)) : FVec Ideal S64x1024 .f32) (ix2 e' j)
      = Ideal.exp (L (ix2 e' j) - rowMax fun e'' : Fin 64 => L (ix2 e'' j)) := fun e' => by
    show Ideal.exp (L (ix2 e' j) - colMax L (ix2 e' j)) = _
    rw [colMax_apply]
  unfold softmaxT softmaxRow
  show Ideal.div ((exp (subf L (colMax L)) : FVec Ideal S64x1024 .f32) (ix2 e j)) (colSum (exp (subf L (colMax L))) (ix2 e j)) = _
  rw [colSum_apply, hE]
  exact congrArg _ (Finset.sum_congr rfl fun e' _ => hE e')

/-- THE STORED VALUE at expert `e` and block token `j`: the softmax of the token's 64 logits at `e`. -/
theorem pay_apply (wt : FVec Ideal S64x2048 .f32) (xb : FVec Ideal S1024x2048 .f32) (bb : FVec Ideal S1x64 .f32)
    (e : Fin 64) (j : Fin 1024) :
    k0_pay1 (F := Ideal) wt xb bb (ix2 e j) = softmaxRow (blockLogit wt xb bb j) e := by
  rw [pay_eq, softmaxT_apply]
  exact congrArg (fun f => softmaxRow f e) (funext fun e' => logitsT_apply wt xb bb e' j)

end Cert.KernelIdeal.BlockValue

end
-- ==== Proof.GateArray.lean ====
/-
  From the blocks to the whole array.

  The kernel's output array holds the probabilities with the experts on the rows and the tokens on the columns. Grid point
  `t` handles the tokens `1024·t … 1024·t + 1023`: it reads their rows of `x` (block `t` of the token axis), the whole
  transposed weight matrix and the whole bias row, and writes back the 64 × 1024 block of columns `1024·t …`. The weight
  operand is `W` transposed by the host before the launch, so its entry `(e, k)` is `W[k, e]`, and the bias operand is `b`
  reshaped to one row, whose entry `(0, e)` is `b[e]`. So the entry the body stores at expert `e` and block token `j` is the
  gate at token `1024·t + j` and expert `e` (the products' factors commuted), which is the entry of the transposed gate
  the block's rectangle names. The sixteen blocks cover the array: column `n` lies in the block of point `n / 1024`.
-/
import proofs.«147851_g64424509440698_cont_sun_c4_507_31_alg».proof.Proof.Gen.KernelIdeal.Frame
import proofs.«147851_g64424509440698_cont_sun_c4_507_31_alg».proof.Proof.BlockGate
import Idealize.ShloMosaic.Lib.StableHlo.Run
import Idealize.ShloMosaic.Lib.Pipeline.Value

noncomputable section

open scoped BigOperators

namespace Cert.KernelIdeal.ArrayValue

open Cert.KernelIdeal Cert.KernelIdeal.Gen Cert.KernelIdeal.BlockValue
open Idealize.ShloMosaic Idealize.ShloMosaic.TcCoe Idealize.ShloMosaic.ValueIdx Idealize.SL.Sem Cert.Gate

/-- The gate with the experts on the rows and the tokens on the columns. -/
def gateT (x : (⟨2, ![16384, 2048]⟩ : Shape).Idx → EReal) (W : (⟨2, ![2048, 64]⟩ : Shape).Idx → EReal)
    (b : (⟨1, ![64]⟩ : Shape).Idx → EReal) : (⟨2, ![64, 16384]⟩ : Shape).Idx → EReal :=
  fun i => gate x W b (ix2 (i 1) (i 0))

/-- A block whose weight operand is `W` transposed, whose token rows are `x`'s at token `tok` for block token `j`, and
    whose bias row is `b`, stores at `(e, j)` the gate at `(tok, e)`: the two logits differ by the order of the factors. -/
theorem block_is_gate (x : (⟨2, ![16384, 2048]⟩ : Shape).Idx → EReal) (W : (⟨2, ![2048, 64]⟩ : Shape).Idx → EReal)
    (b : (⟨1, ![64]⟩ : Shape).Idx → EReal)
    (wt : FVec Ideal S64x2048 .f32) (xb : FVec Ideal S1024x2048 .f32) (bb : FVec Ideal S1x64 .f32)
    (tok : Fin 16384) (j : Fin 1024) (e : Fin 64)
    (hwt : ∀ (e' : Fin 64) (k : Fin 2048), wt (ix2 e' k) = W (ix2 k e'))
    (hxb : ∀ k : Fin 2048, xb (ix2 j k) = x (ix2 tok k))
    (hbb : ∀ e' : Fin 64, bb (ix2 (0 : Fin 1) e') = b (ix1 e')) :
    k0_pay1 (F := Ideal) wt xb bb (ix2 e j) = gate x W b (ix2 tok e) := by
  rw [pay_apply, gate_ix2]
  refine congrArg (fun f => softmaxRow f e) (funext fun e' => ?_)
  unfold blockLogit logit
  rw [hbb]
  refine congrArg (· + b (ix1 e')) (Finset.sum_congr rfl fun k _ => ?_)
  rw [hwt, hxb, mul_comm]

variable (m : (ℓ : Loc nD τ sig) → Buf (Elt Ideal) ℓ)

theorem hz : (![0, 0] : Fin 2 → Nat) = fun _ => 0 := funext fun a => by fin_cases a <;> rfl

/-- The windows' index maps over the grid: the token operand and the output move with the point along their token axis,
    and the weight and bias operands stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-! ## The operands the host prepared -/

/-- The weight operand as the region finds it: `W` transposed. -/
theorem V_weights (c : Dev nD) : (V m c main_v0 : S64x2048.Idx → EReal)
    = transpose S64x2048 [1, 0] (m ((c : Thread nD τ).loc main_arg1)) transposes_S2048x64_S64x2048_1_0 := by
  show StableHlo.after hostOps0 (fun b => m (c, b)) (Proc.devRef .tc main_v0) = _
  after_results

/-- The bias operand as the region finds it: `b` as one row. -/
theorem V_bias (c : Dev nD) : (V m c main_v1 : S1x64.Idx → EReal)
    = shapeCast S1x64 (m ((c : Thread nD τ).loc main_arg2)) shapeCasts_S64_S1x64 := by
  show StableHlo.after hostOps0 (fun b => m (c, b)) (Proc.devRef .tc main_v1) = _
  after_results
  rfl

/-! ## The blocks the body reads -/

/-- The weight block at any point, entry `(e', k)`: `W[k, e']`. -/
theorem read_weights (c : Dev nD) (t : Fin cfg0.N) (e' : Fin 64) (k : Fin 2048) :
    (iblk m c 1 t : FVec Ideal S64x2048 .f32) (ix2 e' k) = m ((c : Thread nD τ).loc main_arg1) (ix2 k e') := by
  show V m c main_v0 (((cfg0.win 1).blk t).view.emb (ix2 e' k)) = _
  have hi : ((cfg0.win 1).blk t).view.emb (ix2 e' k) = ix2 e' k := by
    obtain ⟨-, -, e2, e3, -⟩ := idx_facts t
    funext a; apply Fin.ext
    match a with
    | ⟨0, _⟩ => show win0_1.index t (0 : Fin 2) * 64 + 1 * e'.val = e'.val; omega
    | ⟨1, _⟩ => show win0_1.index t (1 : Fin 2) * 2048 + 1 * k.val = k.val; omega
  rw [hi, V_weights, transpose_ix2_apply]

/-- The bias block at any point, entry `(0, e')`: `b[e']`. -/
theorem read_bias (c : Dev nD) (t : Fin cfg0.N) (e' : Fin 64) :
    (iblk m c 2 t : FVec Ideal S1x64 .f32) (ix2 (0 : Fin 1) e') = m ((c : Thread nD τ).loc main_arg2) (ix1 e') := by
  show V m c main_v1 (((cfg0.win 2).blk t).view.emb (ix2 (0 : Fin 1) e')) = _
  have hi : ((cfg0.win 2).blk t).view.emb (ix2 (0 : Fin 1) e') = ix2 (0 : Fin 1) e' := by
    obtain ⟨-, -, -, -, e4, e5, -⟩ := idx_facts t
    funext a; apply Fin.ext
    match a with
    | ⟨0, _⟩ => show win0_2.index t (0 : Fin 2) * 1 + 1 * 0 = 0; omega
    | ⟨1, _⟩ => show win0_2.index t (1 : Fin 2) * 64 + 1 * e'.val = e'.val; omega
  rw [hi, V_bias, shapeCast_a_1a_apply]

/-- The token block at point `t`, entry `(j, k)`: `x` at token `1024·t + j`. -/
theorem read_tokens (c : Dev nD) (t : Fin cfg0.N) (j : Fin 1024) (k : Fin 2048) (tok : Fin 16384)
    (htok : tok.val = t.val * 1024 + j.val) :
    (iblk m c 0 t : FVec Ideal S1024x2048 .f32) (ix2 j k) = m ((c : Thread nD τ).loc main_arg0) (ix2 tok k) := by
  show V m c main_arg0 (((cfg0.win 0).blk t).view.emb (ix2 j k)) = _
  have hi : ((cfg0.win 0).blk t).view.emb (ix2 j k) = ix2 tok k := by
    obtain ⟨e0, e1, -⟩ := idx_facts t
    funext a; apply Fin.ext
    match a with
    | ⟨0, _⟩ => show win0_0.index t (0 : Fin 2) * 1024 + 1 * j.val = tok.val; omega
    | ⟨1, _⟩ => show win0_0.index t (1 : Fin 2) * 2048 + 1 * k.val = k.val; omega
  rw [hi, V_main_arg0]

/-! ## What a point writes back, and the cover -/

/-- WHAT POINT `t` WRITES BACK is block `t` of the transposed gate of the argument arrays. -/
theorem flushed_eq (c : Dev nD) (t : Fin cfg0.N) :
    (dats m 0 c).flushed 3 t = ((cfg0.win 3).blk t).view.read (Elt Ideal)
      (gateT (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz]
  simp only [View.ld_unit_zero (S := S64x2048) hz, View.ld_unit_zero (S := S1024x2048) hz, View.ld_unit_zero (S := S1x64) hz]
  funext y
  obtain ⟨e, j, rfl⟩ : ∃ (e : Fin 64) (j : Fin 1024), y = ix2 e j := ⟨y 0, y 1, eq_ix2 y⟩
  have ht : t.val < 16 := lt_of_lt_of_eq t.isLt N_0
  obtain ⟨tok, htok⟩ : ∃ tok : Fin 16384, tok.val = t.val * 1024 + j.val :=
    ⟨⟨t.val * 1024 + j.val, by have := j.isLt; omega⟩, rfl⟩
  have hi : ((cfg0.win 3).blk t).view.emb (ix2 e j) = ix2 e tok := by
    obtain ⟨-, -, -, -, -, -, e6, e7⟩ := idx_facts t
    funext a; apply Fin.ext
    match a with
    | ⟨0, _⟩ => show win0_3.index t (0 : Fin 2) * 64 + 1 * e.val = e.val; omega
    | ⟨1, _⟩ => show win0_3.index t (1 : Fin 2) * 1024 + 1 * j.val = tok.val; omega
  show k0_pay1 (F := Ideal) (iblk m c 1 t) (iblk m c 0 t) (iblk m c 2 t) (ix2 e j)
    = gateT _ _ _ (((cfg0.win 3).blk t).view.emb (ix2 e j))
  rw [hi]
  exact block_is_gate _ _ _ _ _ _ tok j e (read_weights m c t) (fun k => read_tokens m c t j k tok htok) (read_bias m c t)

/-- An index of the output array is in point `t`'s block iff each coordinate is in the block's range on its axis. -/
theorem mem_blk (t : Fin cfg0.N) (i : S64x16384.Idx) :
    i ∈ ((cfg0.win 3).blk t).view.set ↔ ∀ a : Fin 2, win0_3.index t a * S64x1024.size a ≤ (i a).val
      ∧ (i a).val < win0_3.index t a * S64x1024.size a + S64x1024.size a := by
  show i ∈ ((View.whole main_v2).slice (win0_3.rect t)).set ↔ _
  rw [View.set_slice_whole, Rect.mem_set_unit]
  exact Iff.rfl

/-- Every entry of the output array is in the block of the point its column falls in. -/
theorem cover (i : S64x16384.Idx) : ∃ t : Fin cfg0.N, (cfg0.win 3).flush t = true ∧ i ∈ ((cfg0.win 3).blk t).view.set := by
  have h0 : (i 0).val < 64 := (i 0).isLt
  have h1 : (i 1).val < 16384 := (i 1).isLt
  obtain ⟨t, ht⟩ : ∃ t : Fin cfg0.N, t.val = (i 1).val / 1024 :=
    ⟨⟨(i 1).val / 1024, lt_of_lt_of_eq (by omega : (i 1).val / 1024 < 16) N_0.symm⟩, rfl⟩
  refine ⟨t, flush0_3 t, ?_⟩
  rw [mem_blk]
  obtain ⟨-, -, -, -, -, -, e6, e7⟩ := idx_facts t
  intro a
  match a with
  | ⟨0, _⟩ =>
    show win0_3.index t (0 : Fin 2) * 64 ≤ (i 0).val ∧ (i 0).val < win0_3.index t (0 : Fin 2) * 64 + 64
    omega
  | ⟨1, _⟩ =>
    show win0_3.index t (1 : Fin 2) * 1024 ≤ (i 1).val ∧ (i 1).val < win0_3.index t (1 : Fin 2) * 1024 + 1024
    omega

/-- THE OUTPUT ARRAY after the run is the transposed gate of the argument arrays. -/
theorem final (c : Dev nD) : (dats m 0 c).arrAt 3 cfg0.N
    = gateT (m ((c : Thread nD τ).loc main_arg0)) (m ((c : Thread nD τ).loc main_arg1)) (m ((c : Thread nD τ).loc main_arg2)) :=
  (dats m 0 c).arrAt_eq_of_cover 3 _ (fun t _ => flushed_eq m c t) cover

end Cert.KernelIdeal.ArrayValue

end
-- ==== Proof.GateRun.lean ====
/-
  The kernel's run, read: its result is the gate.

  After the region the host transposes the output array, experts-by-tokens, into the result, tokens-by-experts; the output
  array being the transposed gate, the result is the gate. The argument arrays end as they were launched.
-/
import proofs.«147851_g64424509440698_cont_sun_c4_507_31_alg».proof.Proof.GateArray

noncomputable section

namespace Cert.KernelIdeal.ArrayValue

open Cert.KernelIdeal Cert.KernelIdeal.Gen
open Idealize.ShloMosaic Idealize.ShloMosaic.TcCoe Idealize.ShloMosaic.ValueIdx Idealize.SL.Sem Cert.Gate

/-- The transposed gate, transposed back, is the gate. -/
theorem transpose_gateT (x : (⟨2, ![16384, 2048]⟩ : Shape).Idx → EReal) (W : (⟨2, ![2048, 64]⟩ : Shape).Idx → EReal)
    (b : (⟨1, ![64]⟩ : Shape).Idx → EReal) (h : (⟨2, ![64, 16384]⟩ : Shape).Transposes [1, 0] ⟨2, ![16384, 64]⟩) :
    transpose ⟨2, ![16384, 64]⟩ [1, 0] (gateT x W b) h = gate x W b := by
  funext i
  obtain ⟨tok, e, rfl⟩ : ∃ (tok : Fin 16384) (e : Fin 64), i = ix2 tok e := ⟨i 0, i 1, eq_ix2 i⟩
  rw [transpose_ix2_apply]
  rfl

variable (m : (ℓ : Loc nD τ sig) → Buf (Elt Ideal) ℓ) (ρ : Dev nD → PrngReg)

/-- The result buffer after the host's transpose of the output array. -/
theorem result_eq (c : Dev nD) :
    Pipeline.afterTail₀ cfgs (dats m) 0 (V0 m) [hostOps1] c main_v3
      = gate (m ((c.tc : Thread nD τ).loc main_arg0)) (m ((c.tc : Thread nD τ).loc main_arg1)) (m ((c.tc : Thread nD τ).loc main_arg2)) := by
  have h2 : Pipeline.withArrays spec0 c (V0 m c) (fun w => (dats m 0 c).arrAt w cfg0.N) (Proc.devRef .tc (Pipeline.arrRef spec0 3))
      = gateT (m ((c.tc : Thread nD τ).loc main_arg0)) (m ((c.tc : Thread nD τ).loc main_arg1)) (m ((c.tc : Thread nD τ).loc main_arg2)) :=
    (Pipeline.withArrays_arr spec0 launch0.win.arr_inj c (V0 m c) (fun w => (dats m 0 c).arrAt w cfg0.N) 3).trans (final m c)
  unfold Pipeline.afterTail₀
  show StableHlo.after hostOps1 _ (Proc.devRef .tc main_v3) = _
  after_results
  exact (congrArg (fun A => transpose S16384x64 [1, 0] A transposes_S64x16384_S16384x64_1_0) h2).trans
    (transpose_gateT _ _ _ _)

/-- Every weakly fair execution of the kernel's program terminates with the result at the gate of the argument arrays
    and the argument arrays unchanged. -/
theorem run : θ_run defs (onTc (τ := τ) (main (F := Ideal))) ⟨m, fun _ => 0, ρ⟩ (fun r => ∀ c : Dev nD,
      r.2.mem ((c.tc : Thread nD τ).loc main_v3)
        = gate (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v3 (Pipeline.mem_restRefs_of main_v3 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.ArrayValue

end
-- ==== Proof.RefGate.lean ====
/-
  The reference computes the gate.

  Read one stage at a time at a token `t` and an expert `e`: the product `x · W` at `(t, e)` is the sum over the model
  coordinate of `x[t,k] · W[k,e]`; the bias, broadcast over the tokens, is `b[e]` there; so the logits' stage is `logit`.
  The maximum stage is the fold of `max` from −∞ over the 64 experts of token `t`'s logits, and the reference's further
  maximum with −∞ changes nothing; the exponential stage is `exp` of the logit less that maximum; the sum stage adds
  zero to the sum of the 64 exponentials; and the quotient is the softmax of the token's logits at `e`.
-/
import proofs.«147851_g64424509440698_cont_sun_c4_507_31_alg».proof.Proof.Gen.ReferenceIdeal.Read
import proofs.«147851_g64424509440698_cont_sun_c4_507_31_alg».proof.Proof.Softmax
import Idealize.ShloMosaic.PureOps.Reduce

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Gate

variable (x : (⟨S16384x2048, .f32⟩ : BufTy).Contents (Elt Ideal)) (W : (⟨S2048x64, .f32⟩ : BufTy).Contents (Elt Ideal))
  (b : (⟨S64, .f32⟩ : BufTy).Contents (Elt Ideal))

/-- The logits' stage at `(t, e)`. -/
theorem logits_apply (t : Fin 16384) (e : Fin 64) : val_main_v3 (F := Ideal) x W b (ix2 t e) = logit x W b t e := by
  have hl : ∀ k : Fin 2048, lidx_main_v0 (ix2 t e) k = ix2 t k := fun k =>
    funext fun a => Fin.ext (by match a with | ⟨0, _⟩ => rfl | ⟨1, _⟩ => rfl)
  have hr : ∀ k : Fin 2048, ridx_main_v0 (ix2 t e) k = ix2 k e := fun k =>
    funext fun a => Fin.ext (by match a with | ⟨0, _⟩ => rfl | ⟨1, _⟩ => rfl)
  have hb : idx_main_v1 (idx_main_v2 (ix2 t e)) = ix1 e :=
    funext fun a => Fin.ext (by match a with | ⟨0, _⟩ => rfl)
  rw [val_main_v3_apply, val_main_v0_apply, val_main_v2_apply, val_main_v1_apply]
  simp only [hl, hr, hb, Ideal.addf_def]
  rfl

/-- The reduced index `t` with the expert coordinate `k` put back is `(t, k)`. -/
theorem lift_experts (h : S16384x64.Reduces [1] S16384) (t : Fin 16384) (k : Fin (S16384x64.size 1)) :
    h.lift (ix1 t) k = ix2 t (⟨k.val, k.isLt⟩ : Fin 64) :=
  funext fun c => Fin.ext (by match c with | ⟨0, _⟩ => rfl | ⟨1, _⟩ => rfl)

/-- The maximum stage at token `t`: the largest of the token's logits. -/
theorem max_apply (t : Fin 16384) : val_main_v6 (F := Ideal) x W b (ix1 t) = rowMax (logit x W b t) := by
  have hr : S16384x64.Reduces [1] S16384 :=
    ⟨reducesTo_S16384x64_S16384_d1.1, Nat.one_pos, reducesTo_S16384x64_S16384_d1.2⟩
  rw [val_main_v6_apply, val_main_v5_apply, val_main_cst_0_apply]
  show max (Ideal.ofBits .f32 0xFF800000#32) (val_main_v4 (F := Ideal) x W b (ix1 t)) = _
  rw [max_negInf]
  unfold val_main_v4
  rw [Host.reduce_eq_fold_single FloatOps.maximumf _ _ reducesTo_S16384x64_S16384_d1 hr h_S_]
  have hf : (val_main_v3 (F := Ideal) x W b ∘ hr.lift (ix1 t)) = fun k : Fin 64 => logit x W b t k :=
    funext fun k => (congrArg (val_main_v3 (F := Ideal) x W b) (lift_experts hr t k)).trans (logits_apply x W b t _)
  exact congrArg (fun f => Finset.fold max (Ideal.ofBits .f32 0xFF800000#32) f (Finset.univ : Finset (Fin 64))) hf

/-- The exponential stage at `(t, e)`. -/
theorem exp_apply (t : Fin 16384) (e : Fin 64) :
    val_main_v10 (F := Ideal) x W b (ix2 t e) = Ideal.exp (logit x W b t e - rowMax (logit x W b t)) := by
  have h8 : idx_main_v7 (idx_main_v8 (ix2 t e)) = ix1 t :=
    funext fun a => Fin.ext (by match a with | ⟨0, _⟩ => rfl)
  rw [val_main_v10_apply, val_main_v9_apply, val_main_v8_apply, val_main_v7_apply, h8, max_apply, logits_apply]
  rfl

/-- The sum stage at token `t`: the sum of the token's 64 exponentials. -/
theorem sum_apply (t : Fin 16384) :
    val_main_v11 (F := Ideal) x W b (ix1 t) = ∑ e' : Fin 64, Ideal.exp (logit x W b t e' - rowMax (logit x W b t)) := by
  rw [val_main_v11_apply, val_main_cst_1_apply]
  show Ideal.ofBits .f32 0x00000000#32 + _ = _
  rw [Ideal.ofBits_zero_f32, zero_add]
  refine Finset.sum_congr rfl fun k _ => ?_
  have hk : idx_main_v11 (ix1 t) k = ix2 t k :=
    funext fun a => Fin.ext (by match a with | ⟨0, _⟩ => rfl | ⟨1, _⟩ => rfl)
  rw [hk, exp_apply]

/-- The reference's result is the gate. -/
theorem result_eq : val_main_v14 (F := Ideal) x W b = gate x W b := by
  funext i
  obtain ⟨t, e, rfl⟩ : ∃ (t : Fin 16384) (e : Fin 64), i = ix2 t e := ⟨i 0, i 1, eq_ix2 i⟩
  have h13 : idx_main_v12 (idx_main_v13 (ix2 t e)) = ix1 t :=
    funext fun a => Fin.ext (by match a with | ⟨0, _⟩ => rfl)
  rw [val_main_v14_apply, val_main_v13_apply, val_main_v12_apply, h13, sum_apply, exp_apply, gate_ix2]
  rfl

end Cert.ReferenceIdeal.RefValue

end
-- ==== Proof.lean ====
/-
  The mixture-of-experts gate: a fused kernel against its reference, on the extended reals.

  Both programs compute, for every token `t` and expert `e`, the softmax over the 64 experts of the logits
  `L t e = (∑ k, x[t,k] · W[k,e]) + b[e]`, taken the stable way: with `M t` the largest of token `t`'s logits,
  `exp (L t e − M t) / ∑ e', exp (L t e' − M t)` (`Cert.Gate.gate`).

  The reference does so directly, tokens by experts; its one extra step, a maximum of the row maximum with −∞, changes
  nothing. The kernel computes the transposed array, experts by tokens, in sixteen blocks of 1024 tokens: each block
  multiplies the transposed weights by the block's token rows (so each product's factors come in the other order, and
  multiplication of extended reals commutes), adds the bias as a column, and takes the maximum and the sum down each
  column; the host transposes the result back. No law used needs the inputs finite: the two sides are the same
  expression in the same order up to the order of the two factors of each product, so the precondition is never opened.
  The kernel has no idealization step of its own to account for (the statement `preserves` is `True`).
-/
import proofs.«147851_g64424509440698_cont_sun_c4_507_31_alg».proof.Defs
import proofs.«147851_g64424509440698_cont_sun_c4_507_31_alg».proof.Proof.Gen.Kernel
import proofs.«147851_g64424509440698_cont_sun_c4_507_31_alg».proof.Proof.Gen.Kernel.Skeleton
import proofs.«147851_g64424509440698_cont_sun_c4_507_31_alg».proof.Proof.Gen.Kernel.Launch
import proofs.«147851_g64424509440698_cont_sun_c4_507_31_alg».proof.Proof.Gen.Kernel.Points
import proofs.«147851_g64424509440698_cont_sun_c4_507_31_alg».proof.Proof.Gen.Kernel.Frame
import proofs.«147851_g64424509440698_cont_sun_c4_507_31_alg».proof.Proof.Gen.KernelIdeal
import proofs.«147851_g64424509440698_cont_sun_c4_507_31_alg».proof.Proof.Gen.KernelIdeal.Skeleton
import proofs.«147851_g64424509440698_cont_sun_c4_507_31_alg».proof.Proof.Gen.KernelIdeal.Launch
import proofs.«147851_g64424509440698_cont_sun_c4_507_31_alg».proof.Proof.Gen.KernelIdeal.Points
import proofs.«147851_g64424509440698_cont_sun_c4_507_31_alg».proof.Proof.Gen.KernelIdeal.Frame
import proofs.«147851_g64424509440698_cont_sun_c4_507_31_alg».proof.Proof.Gen.ReferenceIdeal
import proofs.«147851_g64424509440698_cont_sun_c4_507_31_alg».proof.Proof.Gen.ReferenceIdeal.Run
import proofs.«147851_g64424509440698_cont_sun_c4_507_31_alg».proof.Proof.Gen.ReferenceIdeal.Read
import proofs.«147851_g64424509440698_cont_sun_c4_507_31_alg».proof.Proof.Gen.Pre_finite_inputs
import proofs.«147851_g64424509440698_cont_sun_c4_507_31_alg».proof.Proof.GateRun
import proofs.«147851_g64424509440698_cont_sun_c4_507_31_alg».proof.Proof.RefGate
import Idealize.ShloMosaic.Adequacy
import Idealize.ShloMosaic.Init

noncomputable section

namespace Cert.Proof

open Idealize.ShloMosaic Idealize.SL.Sem Cert.Gate

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories agreeing on the three arguments both programs end with the gate of those arguments as their result:
    the kernel's run ends there, and the reference's result is the gate of its own arguments, which are the kernel's. -/
theorem algebraic : Cert.algebraic_KernelIdeal_ReferenceIdeal := by
  intro m ρ m' ρ' _ hagree
  refine ⟨fun c => gate (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
